-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S64x4096 .f32) (main_arg1 : FVec F S11008x4096 .f32) (main_arg2 : FVec F S11008x32 .f32) (main_arg3 : FVec F S11008 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x32 .f32 := Host.absf main_arg2
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S64x4096 : Shape := ⟨2, ![64, 4096]⟩
abbrev S11008x4096 : Shape := ⟨2, ![11008, 4096]⟩
abbrev S11008x32 : Shape := ⟨2, ![11008, 32]⟩
abbrev S11008 : Shape := ⟨1, ![11008]⟩
abbrev S1x11008 : Shape := ⟨2, ![1, 11008]⟩
abbrev S64x11008 : Shape := ⟨2, ![64, 11008]⟩
abbrev S1408x4096 : Shape := ⟨2, ![1408, 4096]⟩
abbrev S1408x32 : Shape := ⟨2, ![1408, 32]⟩
abbrev S1x1408 : Shape := ⟨2, ![1, 1408]⟩
abbrev S64x1408 : Shape := ⟨2, ![64, 1408]⟩
abbrev S64x128 : Shape := ⟨2, ![64, 128]⟩
abbrev S1408x128 : Shape := ⟨2, ![1408, 128]⟩
abbrev S1408x1 : Shape := ⟨2, ![1408, 1]⟩
abbrev S1408 : Shape := ⟨1, ![1408]⟩

abbrev nBuf : Space → Nat
  | .hbm => 6
  | .vmem => 9
  | .smem => 0
  | _ => 0

abbrev bufTy : (tb : Table) → Fin (tcTables nBuf tb) → BufTy
  | .hbm, ⟨0, _⟩ => ⟨S64x4096, .f32⟩
  | .hbm, ⟨1, _⟩ => ⟨S11008x4096, .f32⟩
  | .hbm, ⟨2, _⟩ => ⟨S11008x32, .f32⟩
  | .hbm, ⟨3, _⟩ => ⟨S11008, .f32⟩
  | .hbm, ⟨4, _⟩ => ⟨S1x11008, .f32⟩
  | .hbm, ⟨5, _⟩ => ⟨S64x11008, .f32⟩
  | .local _ .vmem, ⟨0, _⟩ => ⟨S64x4096, .f32⟩
  | .local _ .vmem, ⟨1, _⟩ => ⟨S1408x4096, .f32⟩
  | .local _ .vmem, ⟨2, _⟩ => ⟨S1408x4096, .f32⟩
  | .local _ .vmem, ⟨3, _⟩ => ⟨S1408x32, .f32⟩
  | .local _ .vmem, ⟨4, _⟩ => ⟨S1408x32, .f32⟩
  | .local _ .vmem, ⟨5, _⟩ => ⟨S1x1408, .f32⟩
  | .local _ .vmem, ⟨6, _⟩ => ⟨S1x1408, .f32⟩
  | .local _ .vmem, ⟨7, _⟩ => ⟨S64x1408, .f32⟩
  | .local _ .vmem, ⟨8, _⟩ => ⟨S64x1408, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1408x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1408x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S11008_S1x11008 : S11008.ShapeCasts S1x11008
  inb_S64x4096_S64x4096_0_0 : ∀ a, (![0, 0] : Fin 2 → Nat) a + S64x4096.size a ≤ S64x4096.size a
  h_S64x4096 : 0 < S64x4096.numel
  inb_S1408x4096_S1408x4096_0_0 : ∀ a, (![0, 0] : Fin 2 → Nat) a + S1408x4096.size a ≤ S1408x4096.size a
  h_S1408x4096 : 0 < S1408x4096.numel
  inb_S1408x32_S1408x32_0_0 : ∀ a, (![0, 0] : Fin 2 → Nat) a + S1408x32.size a ≤ S1408x32.size a
  h_S1408x32 : 0 < S1408x32.numel
  slices_S64x4096_o0_0_S64x128 : S64x4096.Slices ![0, 0] S64x128
  slices_S1408x4096_o0_0_S1408x128 : S1408x4096.Slices ![0, 0] S1408x128
  slices_S1408x32_o0_0_S1408x1 : S1408x32.Slices ![0, 0] S1408x1
  shapeCasts_S1408x1_S1408 : S1408x1.ShapeCasts S1408
  shapeCasts_S1408_S1x1408 : S1408.ShapeCasts S1x1408
  broadcasts_S1x1408_S64x1408 : S1x1408.Broadcasts S64x1408
  slices_S64x4096_o0_128_S64x128 : S64x4096.Slices ![0, 128] S64x128
  slices_S1408x4096_o0_128_S1408x128 : S1408x4096.Slices ![0, 128] S1408x128
  slices_S1408x32_o0_1_S1408x1 : S1408x32.Slices ![0, 1] S1408x1
  slices_S64x4096_o0_256_S64x128 : S64x4096.Slices ![0, 256] S64x128
  slices_S1408x4096_o0_256_S1408x128 : S1408x4096.Slices ![0, 256] S1408x128
  slices_S1408x32_o0_2_S1408x1 : S1408x32.Slices ![0, 2] S1408x1
  slices_S64x4096_o0_384_S64x128 : S64x4096.Slices ![0, 384] S64x128
  slices_S1408x4096_o0_384_S1408x128 : S1408x4096.Slices ![0, 384] S1408x128
  slices_S1408x32_o0_3_S1408x1 : S1408x32.Slices ![0, 3] S1408x1
  slices_S64x4096_o0_512_S64x128 : S64x4096.Slices ![0, 512] S64x128
  slices_S1408x4096_o0_512_S1408x128 : S1408x4096.Slices ![0, 512] S1408x128
  slices_S1408x32_o0_4_S1408x1 : S1408x32.Slices ![0, 4] S1408x1
  slices_S64x4096_o0_640_S64x128 : S64x4096.Slices ![0, 640] S64x128
  slices_S1408x4096_o0_640_S1408x128 : S1408x4096.Slices ![0, 640] S1408x128
  slices_S1408x32_o0_5_S1408x1 : S1408x32.Slices ![0, 5] S1408x1
  slices_S64x4096_o0_768_S64x128 : S64x4096.Slices ![0, 768] S64x128
  slices_S1408x4096_o0_768_S1408x128 : S1408x4096.Slices ![0, 768] S1408x128
  slices_S1408x32_o0_6_S1408x1 : S1408x32.Slices ![0, 6] S1408x1
  slices_S64x4096_o0_896_S64x128 : S64x4096.Slices ![0, 896] S64x128
  slices_S1408x4096_o0_896_S1408x128 : S1408x4096.Slices ![0, 896] S1408x128
  slices_S1408x32_o0_7_S1408x1 : S1408x32.Slices ![0, 7] S1408x1
  slices_S64x4096_o0_1024_S64x128 : S64x4096.Slices ![0, 1024] S64x128
  slices_S1408x4096_o0_1024_S1408x128 : S1408x4096.Slices ![0, 1024] S1408x128
  slices_S1408x32_o0_8_S1408x1 : S1408x32.Slices ![0, 8] S1408x1
  slices_S64x4096_o0_1152_S64x128 : S64x4096.Slices ![0, 1152] S64x128
  slices_S1408x4096_o0_1152_S1408x128 : S1408x4096.Slices ![0, 1152] S1408x128
  slices_S1408x32_o0_9_S1408x1 : S1408x32.Slices ![0, 9] S1408x1
  slices_S64x4096_o0_1280_S64x128 : S64x4096.Slices ![0, 1280] S64x128
  slices_S1408x4096_o0_1280_S1408x128 : S1408x4096.Slices ![0, 1280] S1408x128
  slices_S1408x32_o0_10_S1408x1 : S1408x32.Slices ![0, 10] S1408x1
  slices_S64x4096_o0_1408_S64x128 : S64x4096.Slices ![0, 1408] S64x128
  slices_S1408x4096_o0_1408_S1408x128 : S1408x4096.Slices ![0, 1408] S1408x128
  slices_S1408x32_o0_11_S1408x1 : S1408x32.Slices ![0, 11] S1408x1
  slices_S64x4096_o0_1536_S64x128 : S64x4096.Slices ![0, 1536] S64x128
  slices_S1408x4096_o0_1536_S1408x128 : S1408x4096.Slices ![0, 1536] S1408x128
  slices_S1408x32_o0_12_S1408x1 : S1408x32.Slices ![0, 12] S1408x1
  slices_S64x4096_o0_1664_S64x128 : S64x4096.Slices ![0, 1664] S64x128
  slices_S1408x4096_o0_1664_S1408x128 : S1408x4096.Slices ![0, 1664] S1408x128
  slices_S1408x32_o0_13_S1408x1 : S1408x32.Slices ![0, 13] S1408x1
  slices_S64x4096_o0_1792_S64x128 : S64x4096.Slices ![0, 1792] S64x128
  slices_S1408x4096_o0_1792_S1408x128 : S1408x4096.Slices ![0, 1792] S1408x128
  slices_S1408x32_o0_14_S1408x1 : S1408x32.Slices ![0, 14] S1408x1
  slices_S64x4096_o0_1920_S64x128 : S64x4096.Slices ![0, 1920] S64x128
  slices_S1408x4096_o0_1920_S1408x128 : S1408x4096.Slices ![0, 1920] S1408x128
  slices_S1408x32_o0_15_S1408x1 : S1408x32.Slices ![0, 15] S1408x1
  slices_S64x4096_o0_2048_S64x128 : S64x4096.Slices ![0, 2048] S64x128
  slices_S1408x4096_o0_2048_S1408x128 : S1408x4096.Slices ![0, 2048] S1408x128
  slices_S1408x32_o0_16_S1408x1 : S1408x32.Slices ![0, 16] S1408x1
  slices_S64x4096_o0_2176_S64x128 : S64x4096.Slices ![0, 2176] S64x128
  slices_S1408x4096_o0_2176_S1408x128 : S1408x4096.Slices ![0, 2176] S1408x128
  slices_S1408x32_o0_17_S1408x1 : S1408x32.Slices ![0, 17] S1408x1
  slices_S64x4096_o0_2304_S64x128 : S64x4096.Slices ![0, 2304] S64x128
  slices_S1408x4096_o0_2304_S1408x128 : S1408x4096.Slices ![0, 2304] S1408x128
  slices_S1408x32_o0_18_S1408x1 : S1408x32.Slices ![0, 18] S1408x1
  slices_S64x4096_o0_2432_S64x128 : S64x4096.Slices ![0, 2432] S64x128
  slices_S1408x4096_o0_2432_S1408x128 : S1408x4096.Slices ![0, 2432] S1408x128
  slices_S1408x32_o0_19_S1408x1 : S1408x32.Slices ![0, 19] S1408x1
  slices_S64x4096_o0_2560_S64x128 : S64x4096.Slices ![0, 2560] S64x128
  slices_S1408x4096_o0_2560_S1408x128 : S1408x4096.Slices ![0, 2560] S1408x128
  slices_S1408x32_o0_20_S1408x1 : S1408x32.Slices ![0, 20] S1408x1
  slices_S64x4096_o0_2688_S64x128 : S64x4096.Slices ![0, 2688] S64x128
  slices_S1408x4096_o0_2688_S1408x128 : S1408x4096.Slices ![0, 2688] S1408x128
  slices_S1408x32_o0_21_S1408x1 : S1408x32.Slices ![0, 21] S1408x1
  slices_S64x4096_o0_2816_S64x128 : S64x4096.Slices ![0, 2816] S64x128
  slices_S1408x4096_o0_2816_S1408x128 : S1408x4096.Slices ![0, 2816] S1408x128
  slices_S1408x32_o0_22_S1408x1 : S1408x32.Slices ![0, 22] S1408x1
  slices_S64x4096_o0_2944_S64x128 : S64x4096.Slices ![0, 2944] S64x128
  slices_S1408x4096_o0_2944_S1408x128 : S1408x4096.Slices ![0, 2944] S1408x128
  slices_S1408x32_o0_23_S1408x1 : S1408x32.Slices ![0, 23] S1408x1
  slices_S64x4096_o0_3072_S64x128 : S64x4096.Slices ![0, 3072] S64x128
  slices_S1408x4096_o0_3072_S1408x128 : S1408x4096.Slices ![0, 3072] S1408x128
  slices_S1408x32_o0_24_S1408x1 : S1408x32.Slices ![0, 24] S1408x1
  slices_S64x4096_o0_3200_S64x128 : S64x4096.Slices ![0, 3200] S64x128
  slices_S1408x4096_o0_3200_S1408x128 : S1408x4096.Slices ![0, 3200] S1408x128
  slices_S1408x32_o0_25_S1408x1 : S1408x32.Slices ![0, 25] S1408x1
  slices_S64x4096_o0_3328_S64x128 : S64x4096.Slices ![0, 3328] S64x128
  slices_S1408x4096_o0_3328_S1408x128 : S1408x4096.Slices ![0, 3328] S1408x128
  slices_S1408x32_o0_26_S1408x1 : S1408x32.Slices ![0, 26] S1408x1
  slices_S64x4096_o0_3456_S64x128 : S64x4096.Slices ![0, 3456] S64x128
  slices_S1408x4096_o0_3456_S1408x128 : S1408x4096.Slices ![0, 3456] S1408x128
  slices_S1408x32_o0_27_S1408x1 : S1408x32.Slices ![0, 27] S1408x1
  slices_S64x4096_o0_3584_S64x128 : S64x4096.Slices ![0, 3584] S64x128
  slices_S1408x4096_o0_3584_S1408x128 : S1408x4096.Slices ![0, 3584] S1408x128
  slices_S1408x32_o0_28_S1408x1 : S1408x32.Slices ![0, 28] S1408x1
  slices_S64x4096_o0_3712_S64x128 : S64x4096.Slices ![0, 3712] S64x128
  slices_S1408x4096_o0_3712_S1408x128 : S1408x4096.Slices ![0, 3712] S1408x128
  slices_S1408x32_o0_29_S1408x1 : S1408x32.Slices ![0, 29] S1408x1
  slices_S64x4096_o0_3840_S64x128 : S64x4096.Slices ![0, 3840] S64x128
  slices_S1408x4096_o0_3840_S1408x128 : S1408x4096.Slices ![0, 3840] S1408x128
  slices_S1408x32_o0_30_S1408x1 : S1408x32.Slices ![0, 30] S1408x1
  slices_S64x4096_o0_3968_S64x128 : S64x4096.Slices ![0, 3968] S64x128
  slices_S1408x4096_o0_3968_S1408x128 : S1408x4096.Slices ![0, 3968] S1408x128
  slices_S1408x32_o0_31_S1408x1 : S1408x32.Slices ![0, 31] S1408x1
  inb_S1x1408_S1x1408_0_0 : ∀ a, (![0, 0] : Fin 2 → Nat) a + S1x1408.size a ≤ S1x1408.size a
  h_S1x1408 : 0 < S1x1408.numel
  shapeCasts_S1x1408_S1x1408 : S1x1408.ShapeCasts S1x1408
  inb_S64x1408_S64x1408_0_0 : ∀ a, (![0, 0] : Fin 2 → Nat) a + S64x1408.size a ≤ S64x1408.size a
  h_S64x1408 : 0 < S64x1408.numel
  dot_S64x128_S1408x128_S64x1408_1_1_0_0_n_n_wf : DotDims.WF S64x128 S1408x128 S64x1408 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1408x4096.size a < S11008x4096.size a
  hwx0_1 : ∀ i : grid0.Coords, EltTy.bits .f32 = 32 ∨ (Rect.unit (s := S11008x4096) (fun a => cc0_transform_1 i a * S1408x4096.size a) (fun a => (Pipeline.Clip.of (cc0_transform_1 i a) (S1408x4096.size a) (S11008x4096.size a)).extent (S1408x4096.size a)) fun a => Pipeline.Clip.inb (Pipeline.Clip.ok_of (hstart0_1 i a))).WholeWords (EltTy.packing .f32)
  hwxs0_1 : ∀ i : grid0.Coords, EltTy.bits .f32 = 32 ∨ (Rect.unit (s := S1408x4096) (fun _ => 0) (fun a => (Pipeline.Clip.of (cc0_transform_1 i a) (S1408x4096.size a) (S11008x4096.size a)).extent (S1408x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1408x32.size a < S11008x32.size a
  hwx0_2 : ∀ i : grid0.Coords, EltTy.bits .f32 = 32 ∨ (Rect.unit (s := S11008x32) (fun a => cc0_transform_2 i a * S1408x32.size a) (fun a => (Pipeline.Clip.of (cc0_transform_2 i a) (S1408x32.size a) (S11008x32.size a)).extent (S1408x32.size a)) fun a => Pipeline.Clip.inb (Pipeline.Clip.ok_of (hstart0_2 i a))).WholeWords (EltTy.packing .f32)
  hwxs0_2 : ∀ i : grid0.Coords, EltTy.bits .f32 = 32 ∨ (Rect.unit (s := S1408x32) (fun _ => 0) (fun a => (Pipeline.Clip.of (cc0_transform_2 i a) (S1408x32.size a) (S11008x32.size a)).extent (S1408x32.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1408.size a < S1x11008.size a
  hwx0_3 : ∀ i : grid0.Coords, EltTy.bits .f32 = 32 ∨ (Rect.unit (s := S1x11008) (fun a => cc0_transform_3 i a * S1x1408.size a) (fun a => (Pipeline.Clip.of (cc0_transform_3 i a) (S1x1408.size a) (S1x11008.size a)).extent (S1x1408.size a)) fun a => Pipeline.Clip.inb (Pipeline.Clip.ok_of (hstart0_3 i a))).WholeWords (EltTy.packing .f32)
  hwxs0_3 : ∀ i : grid0.Coords, EltTy.bits .f32 = 32 ∨ (Rect.unit (s := S1x1408) (fun _ => 0) (fun a => (Pipeline.Clip.of (cc0_transform_3 i a) (S1x1408.size a) (S1x11008.size a)).extent (S1x1408.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S64x1408.size a < S64x11008.size a
  hwx0_4 : ∀ i : grid0.Coords, EltTy.bits .f32 = 32 ∨ (Rect.unit (s := S64x11008) (fun a => cc0_transform_4 i a * S64x1408.size a) (fun a => (Pipeline.Clip.of (cc0_transform_4 i a) (S64x1408.size a) (S64x11008.size a)).extent (S64x1408.size a)) fun a => Pipeline.Clip.inb (Pipeline.Clip.ok_of (hstart0_4 i a))).WholeWords (EltTy.packing .f32)
  hwxs0_4 : ∀ i : grid0.Coords, EltTy.bits .f32 = 32 ∨ (Rect.unit (s := S64x1408) (fun _ => 0) (fun a => (Pipeline.Clip.of (cc0_transform_4 i a) (S64x1408.size a) (S64x11008.size a)).extent (S64x1408.size a)) fun a => (Nat.zero_add _).trans_le (Pipeline.Clip.extent_le (Pipeline.Clip.ok_of (hstart0_4 i a)))).WholeWords (EltTy.packing .f32)

variable [Facts₀]

def dot_S64x128_S1408x128_S64x1408_1_1_0_0_n_n : DotDims S64x128 S1408x128 S64x1408 where
  lhsContracting := [1]
  rhsContracting := [1]
  lhsNonContracting := [0]
  rhsNonContracting := [0]
  lhsBatch := []
  rhsBatch := []
  wf := dot_S64x128_S1408x128_S64x1408_1_1_0_0_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1408x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S1408x32.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S1x1408.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v1) S64x1408.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4096 : Shape := ⟨2, ![64, 4096]⟩
abbrev S11008x4096 : Shape := ⟨2, ![11008, 4096]⟩
abbrev S11008x32 : Shape := ⟨2, ![11008, 32]⟩
abbrev S11008 : Shape := ⟨1, ![11008]⟩
abbrev S11008x32x128 : Shape := ⟨3, ![11008, 32, 128]⟩
abbrev S11008x32x1 : Shape := ⟨3, ![11008, 32, 1]⟩
abbrev S64x11008 : Shape := ⟨2, ![64, 11008]⟩
abbrev S1x11008 : Shape := ⟨2, ![1, 11008]⟩

abbrev nBuf : Space → Nat
  | .hbm => 13
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S11008x4096, .f32⟩
  | .hbm, ⟨2, _⟩ => ⟨S11008x32, .f32⟩
  | .hbm, ⟨3, _⟩ => ⟨S11008, .f32⟩
  | .hbm, ⟨4, _⟩ => ⟨S11008x32x128, .f32⟩
  | .hbm, ⟨5, _⟩ => ⟨S11008x32x1, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S64x11008, .f32⟩
  | .hbm, ⟨10, _⟩ => ⟨S1x11008, .f32⟩
  | .hbm, ⟨11, _⟩ => ⟨S64x11008, .f32⟩
  | .hbm, ⟨12, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x11008_1 : S11008.BroadcastsInDim S1x11008 (![1] : Fin 1 → Fin S1x11008.rank)
  bcast_S1x11008_S64x11008_0_1 : S1x11008.BroadcastsInDim S64x11008 (![0, 1] : Fin 2 → Fin S64x11008.rank)
  dot_S64x4096_S11008x4096_S64x11008_1_1_0_0_n_n_wf : DotDims.WF S64x4096 S11008x4096 S64x11008 [1] [1] [0] [0] [] []

variable [Facts₀]

def dot_S64x4096_S11008x4096_S64x11008_1_1_0_0_n_n : DotDims S64x4096 S11008x4096 S64x11008 where
  lhsContracting := [1]
  rhsContracting := [1]
  lhsNonContracting := [0]
  rhsNonContracting := [0]
  lhsBatch := []
  rhsBatch := []
  wf := dot_S64x4096_S11008x4096_S64x11008_1_1_0_0_n_n_wf

class Facts : Prop extends Facts₀ where

variable [Facts]
-- ==== Proof.KernelBody.lean ====
/-
  The kernel body as one memory transaction. On whole staging buffers holding the activations `x` (64 × 4096), a
  1408-row block of the weight codes `w` (1408 × 4096), the same rows of the per-group scales `s` (1408 × 32) and
  the matching stretch of the bias row `b` (1 × 1408), the body loads all four, computes one (64 × 1408) value
  `stored x w s b` and stores it over the whole result buffer; the inputs' buffers are left as found. Nothing here
  says what `stored` computes: it is the chain of the printed payloads, named so that the frame and the value
  proofs can speak of it.
-/
import proofs.«173354_j62861141344487_2_alg».proof.Proof.Gen.Kernel.Frame
import proofs.«173354_j62861141344487_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's five accesses: each is the whole of its buffer -/

abbrev rX : Rect S64x4096 := Rect.unit (s := S64x4096) ![0, 0] S64x4096.size inb_S64x4096_S64x4096_0_0
abbrev rW : Rect S1408x4096 := Rect.unit (s := S1408x4096) ![0, 0] S1408x4096.size inb_S1408x4096_S1408x4096_0_0
abbrev rS : Rect S1408x32 := Rect.unit (s := S1408x32) ![0, 0] S1408x32.size inb_S1408x32_S1408x32_0_0
abbrev rB : Rect S1x1408 := Rect.unit (s := S1x1408) ![0, 0] S1x1408.size inb_S1x1408_S1x1408_0_0
abbrev rO : Rect S64x1408 := Rect.unit (s := S64x1408) ![0, 0] S64x1408.size inb_S64x1408_S64x1408_0_0

/-! ## What the body stores -/

/-- The value the body stores, from the four vectors it loaded: the running sum over the 32 groups of
    (group product) × (group scale), carried through the printed parts, plus the bias row. -/
def stored (v0 : Vec F S64x4096 .f32) (v1 : Vec F S1408x4096 .f32) (v2 : Vec F S1408x32 .f32) (v292 : Vec F S1x1408 .f32) :
    FVec F S64x1408 .f32 :=
  k0_pay1 v0 v1 v2
    (k0_pay14 v0 v1 v2
      (k0_pay11 v0 v1 v2
        (k0_pay8 v0 v1 v2
          (k0_pay5 v0 v1 v2 (k0_pay2 v0 v1 v2) (k0_pay3 v0 v1) (k0_pay4 v2))
          (k0_pay6 v0 v1) (k0_pay7 v2))
        (k0_pay9 v0 v1) (k0_pay10 v2))
      (k0_pay12 v0 v1) (k0_pay13 v2))
    (k0_pay15 v0 v1) (k0_pay16 v2) v292

/-- The result buffer after the body, from the contents of the four input buffers: its one store, over the
    whole buffer. -/
def out4 (x0 : Vec F S64x4096 .f32) (x1 : Vec F S1408x4096 .f32) (x2 : Vec F S1408x32 .f32) (x3 : Vec F S1x1408 .f32) :
    Vec F S64x1408 .f32 :=
  View.canon [⟨rO, stored (View.ld x0 rX) (View.ld x1 rW) (View.ld x2 rS) (View.ld x3 rB)⟩]

/-- The one store covers the result buffer. -/
theorem cover4 (p0 : Vec F S64x1408 .f32) (y : S64x1408.Idx) :
    ∃ pc ∈ ([⟨rO, p0⟩] : List (View.Piece (Elt F) S64x1408 .f32)), y ∈ pc.1.set :=
  View.cover_of_tiled [⟨rO, p0⟩] S64x1408.size (by rfl) y

/-! ## The body's triple -/

set_option maxHeartbeats 4000000 in
/-- The body on whole staging memrefs — the four inputs' at contents `x0 … x3`, the result's at anything — runs to
    its continuation with the inputs' buffers unchanged and the result's at `out4 x0 x1 x2 x3`. -/
theorem sound_kernel (c : Dev nD) (E : Set ℕ) (i : grid0.Coords)
    (arg1 : Memref sig .tc .vmem S64x4096 .f32) (harg1 : arg1.IsWhole)
    (arg2 : Memref sig .tc .vmem S1408x4096 .f32) (harg2 : arg2.IsWhole)
    (arg3 : Memref sig .tc .vmem S1408x32 .f32) (harg3 : arg3.IsWhole)
    (arg4 : Memref sig .tc .vmem S1x1408 .f32) (harg4 : arg4.IsWhole)
    (arg5 : Memref sig .tc .vmem S64x1408 .f32) (harg5 : arg5.IsWhole)
    (x0 : Vec F S64x4096 .f32) (x1 : Vec F S1408x4096 .f32) (x2 : Vec F S1408x32 .f32) (x3 : Vec F S1x1408 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 x0 x1 x2 x3)) -∗ K ⟨⟩))
      ⊢ wp frame (wpE (defs₀ (F := F)) Variants.none c none) E
          (cc0__qlinear_kernel i arg1 harg1 arg2 harg2 arg3 harg3 arg4 harg4 arg5 harg5) K := by
  simp only [cc0__qlinear_kernel_eq_skeleton]; unfold cc0__qlinear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

end Cert.Kernel.Body

end
-- ==== Proof.KernelFrame.lean ====
/-
  The frame of the printed kernel at any float instance: it runs to the end, faults nowhere, and leaves its four
  argument arrays as it found them. The grid has eight points; at point `t` the pipeline stages the activations
  whole, rows `1408·t …` of the weight codes and of the scales, and the matching stretch of the bias row. The last
  block overhangs the arrays (8 · 1408 = 11264 > 11008): its fetch fills only the buffer's leading 1152 rows, and
  what the rest of the buffer holds is not named. So each clipped input's buffer is described as "its block on the
  part the fetch moves, anything elsewhere", and of the result's buffer this proof says nothing at all — the frame
  claim does not read it.
-/
import proofs.«173354_j62861141344487_2_alg».proof.Proof.KernelBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The window whose buffer this proof does not describe: the result's. -/
def forgets : Fin 5 → Bool := fun w => w.val == 4

/-- After the body at point `t`: the activations' buffer holds the whole array; each clipped input's buffer its
    block on the moved part (filled out with the zero word, which nothing reads); the result's is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) (fun _ => Scalar.ofBits .f32 0#32) (iblk m c 1 t) := by dsimp only [dats]
theorem after2 (c : Dev nD) (t : Fin cfg0.N) :
    (dats m 0 c).after 2 t = win0_2.fill (grid0.coords t) (fun _ => Scalar.ofBits .f32 0#32) (iblk m c 2 t) := by dsimp only [dats]
theorem after3 (c : Dev nD) (t : Fin cfg0.N) :
    (dats m 0 c).after 3 t = win0_3.fill (grid0.coords t) (fun _ => Scalar.ofBits .f32 0#32) (iblk m c 3 t) := by dsimp only [dats]

/-- The activations are fetched once and found again at every point. -/
theorem before0 (c : Dev nD) (t : Fin cfg0.N) (d) : (dats m 0 c).before 0 t d = iblk m c 0 t :=
  before0_0_of m (dats m 0 c) (A_eq m c 0) (after0 m c) t d
/-- Each clipped input is fetched at every point: its buffer holds the block where the fetch landed, `d` elsewhere. -/
theorem before1 (c : Dev nD) (t : Fin cfg0.N) (d) :
    (dats m 0 c).before 1 t d = win0_1.fill (grid0.coords t) d (iblk m c 1 t) := by
  unfold Dat.before; rw [if_pos (fetch0_1 t)]; rfl
theorem before2 (c : Dev nD) (t : Fin cfg0.N) (d) :
    (dats m 0 c).before 2 t d = win0_2.fill (grid0.coords t) d (iblk m c 2 t) := by
  unfold Dat.before; rw [if_pos (fetch0_2 t)]; rfl
theorem before3 (c : Dev nD) (t : Fin cfg0.N) (d) :
    (dats m 0 c).before 3 t d = win0_3.fill (grid0.coords t) d (iblk m c 3 t) := by
  unfold Dat.before; rw [if_pos (fetch0_3 t)]; rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it hands back: the clipped inputs described on their moved part only, the result's buffer not at all. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t))))
    ∗ (∃ X, owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1
      (win0_1.cut (grid0.coords t) (win0_1.fill (grid0.coords t) (fun _ => Scalar.ofBits .f32 0#32) (iblk m c 1 t))))
    rw [win0_1.cut_fill]; try iexact H1
  isplitl [H2]
  · iexists d2
    change _ ⊢ owns (c : Thread nD τ) (st0_2 t) fullShare (win0_2.fill (grid0.coords t) d2
      (win0_2.cut (grid0.coords t) (win0_2.fill (grid0.coords t) (fun _ => Scalar.ofBits .f32 0#32) (iblk m c 2 t))))
    rw [win0_2.cut_fill]; try iexact H2
  isplitl [H3]
  · iexists d3
    change _ ⊢ owns (c : Thread nD τ) (st0_3 t) fullShare (win0_3.fill (grid0.coords t) d3
      (win0_3.cut (grid0.coords t) (win0_3.fill (grid0.coords t) (fun _ => Scalar.ofBits .f32 0#32) (iblk m c 3 t))))
    rw [win0_3.cut_fill]; try iexact H3
  · iexists _; iexact H4

theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame claim's post: a staged input array is never written, and the bias vector is staged by no window. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 1 rfl _) _) ((h c).1 1)).trans ((A_eq m c 1).trans (V_main_arg1 m c)),
     (Eq.mp (congrFun (((dats m 0 c).toRForget forgets).ArrAt_in 2 rfl _) _) ((h c).1 2)).trans ((A_eq m c 2).trans (V_main_arg2 m c)),
     ((h c).2 main_arg3 (Pipeline.mem_restRefs_of main_arg3 (by decide) (by decide))).trans (V_main_arg3 m c)⟩) (run_main m ρ)

end Cert.Kernel.Body

end
-- ==== Proof.KernelIdealBody.lean ====
/-
  The kernel body as one memory transaction. On whole staging buffers holding the activations `x` (64 × 4096), a
  1408-row block of the weight codes `w` (1408 × 4096), the same rows of the per-group scales `s` (1408 × 32) and
  the matching stretch of the bias row `b` (1 × 1408), the body loads all four, computes one (64 × 1408) value
  `stored x w s b` and stores it over the whole result buffer; the inputs' buffers are left as found. Nothing here
  says what `stored` computes: it is the chain of the printed payloads, named so that the frame and the value
  proofs can speak of it.
-/
import proofs.«173354_j62861141344487_2_alg».proof.Proof.Gen.KernelIdeal.Frame
import proofs.«173354_j62861141344487_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's five accesses: each is the whole of its buffer -/

abbrev rX : Rect S64x4096 := Rect.unit (s := S64x4096) ![0, 0] S64x4096.size inb_S64x4096_S64x4096_0_0
abbrev rW : Rect S1408x4096 := Rect.unit (s := S1408x4096) ![0, 0] S1408x4096.size inb_S1408x4096_S1408x4096_0_0
abbrev rS : Rect S1408x32 := Rect.unit (s := S1408x32) ![0, 0] S1408x32.size inb_S1408x32_S1408x32_0_0
abbrev rB : Rect S1x1408 := Rect.unit (s := S1x1408) ![0, 0] S1x1408.size inb_S1x1408_S1x1408_0_0
abbrev rO : Rect S64x1408 := Rect.unit (s := S64x1408) ![0, 0] S64x1408.size inb_S64x1408_S64x1408_0_0

/-! ## What the body stores -/

/-- The value the body stores, from the four vectors it loaded: the running sum over the 32 groups of
    (group product) × (group scale), carried through the printed parts, plus the bias row. -/
def stored (v0 : Vec F S64x4096 .f32) (v1 : Vec F S1408x4096 .f32) (v2 : Vec F S1408x32 .f32) (v292 : Vec F S1x1408 .f32) :
    FVec F S64x1408 .f32 :=
  k0_pay1 v0 v1 v2
    (k0_pay14 v0 v1 v2
      (k0_pay11 v0 v1 v2
        (k0_pay8 v0 v1 v2
          (k0_pay5 v0 v1 v2 (k0_pay2 v0 v1 v2) (k0_pay3 v0 v1) (k0_pay4 v2))
          (k0_pay6 v0 v1) (k0_pay7 v2))
        (k0_pay9 v0 v1) (k0_pay10 v2))
      (k0_pay12 v0 v1) (k0_pay13 v2))
    (k0_pay15 v0 v1) (k0_pay16 v2) v292

/-- The result buffer after the body, from the contents of the four input buffers: its one store, over the
    whole buffer. -/
def out4 (x0 : Vec F S64x4096 .f32) (x1 : Vec F S1408x4096 .f32) (x2 : Vec F S1408x32 .f32) (x3 : Vec F S1x1408 .f32) :
    Vec F S64x1408 .f32 :=
  View.canon [⟨rO, stored (View.ld x0 rX) (View.ld x1 rW) (View.ld x2 rS) (View.ld x3 rB)⟩]

/-- The one store covers the result buffer. -/
theorem cover4 (p0 : Vec F S64x1408 .f32) (y : S64x1408.Idx) :
    ∃ pc ∈ ([⟨rO, p0⟩] : List (View.Piece (Elt F) S64x1408 .f32)), y ∈ pc.1.set :=
  View.cover_of_tiled [⟨rO, p0⟩] S64x1408.size (by rfl) y

/-! ## The body's triple -/

set_option maxHeartbeats 4000000 in
/-- The body on whole staging memrefs — the four inputs' at contents `x0 … x3`, the result's at anything — runs to
    its continuation with the inputs' buffers unchanged and the result's at `out4 x0 x1 x2 x3`. -/
theorem sound_kernel (c : Dev nD) (E : Set ℕ) (i : grid0.Coords)
    (arg1 : Memref sig .tc .vmem S64x4096 .f32) (harg1 : arg1.IsWhole)
    (arg2 : Memref sig .tc .vmem S1408x4096 .f32) (harg2 : arg2.IsWhole)
    (arg3 : Memref sig .tc .vmem S1408x32 .f32) (harg3 : arg3.IsWhole)
    (arg4 : Memref sig .tc .vmem S1x1408 .f32) (harg4 : arg4.IsWhole)
    (arg5 : Memref sig .tc .vmem S64x1408 .f32) (harg5 : arg5.IsWhole)
    (x0 : Vec F S64x4096 .f32) (x1 : Vec F S1408x4096 .f32) (x2 : Vec F S1408x32 .f32) (x3 : Vec F S1x1408 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 x0 x1 x2 x3)) -∗ K ⟨⟩))
      ⊢ wp frame (wpE (defs₀ (F := F)) Variants.none c none) E
          (cc0__qlinear_kernel i arg1 harg1 arg2 harg2 arg3 harg3 arg4 harg4 arg5 harg5) K := by
  simp only [cc0__qlinear_kernel_eq_skeleton]; unfold cc0__qlinear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

end Cert.KernelIdeal.Body

end
-- ==== Proof.StoredValue.lean ====
/-
  The value the body stores, read at one entry, at the ideal instance.

  Write `X` for the activations (64 × 4096), `W` for a block of 1408 rows of weight codes, `S` for the same rows of
  the scales (1408 × 32) and `B` for the matching stretch of the bias row. Entry `(p, q)` of what the body stores is

      ∑_{g < 32} (∑_{j < 128} X[p, 128·g + j] · W[q, 128·g + j]) · S[q, g]  +  B[0, q],

  the groups added in order onto the zero word. The body spells the sum out group by group; each group is a slice of
  `X` and of `W` at columns `128·g …`, their product contracted over the 128 columns, times column `g` of `S` turned
  into a row and repeated down the 64 rows. So entry `(p, q)` depends on row `p` of `X`, and on row `q` only of `W`
  and `S` and column `q` only of `B`.
-/
import proofs.«173354_j62861141344487_2_alg».proof.Proof.KernelIdealBody
import Idealize.ShloMosaic.Lib.Pipeline.Value
import Idealize.ShloMosaic.Lib.ValueIdx
import Idealize.ShloMosaic.PureOps.Ideal.Laws

set_option maxRecDepth 16384

noncomputable section

namespace Cert.KernelIdeal.Body

open Cert.KernelIdeal Cert.KernelIdeal.Gen
open Idealize.ShloMosaic Idealize.ShloMosaic.ValueIdx
open scoped BigOperators
open Finset

/-! ## Rows read at a natural position

Positions are written as naturals so that the group sums range over `Finset.range`; every position met is in
range, and a position past the end wraps (it is never read). -/

def xrow (X : Vec Ideal S64x4096 .f32) (p : Fin 64) (k : ℕ) : EReal := X (ix2 p ⟨k % 4096, Nat.mod_lt _ (by decide)⟩)
def wrow (W : Vec Ideal S1408x4096 .f32) (q : Fin 1408) (k : ℕ) : EReal := W (ix2 q ⟨k % 4096, Nat.mod_lt _ (by decide)⟩)
def srow (S : Vec Ideal S1408x32 .f32) (q : Fin 1408) (g : ℕ) : EReal := S (ix2 q ⟨g % 32, Nat.mod_lt _ (by decide)⟩)

/-- One group's contraction: 128 consecutive columns from `off`. -/
def gdot (X : Vec Ideal S64x4096 .f32) (W : Vec Ideal S1408x4096 .f32) (p : Fin 64) (q : Fin 1408) (off : ℕ) : EReal :=
  ∑ j ∈ range 128, xrow X p (off + j) * wrow W q (off + j)

/-! ## The contraction's index maps -/

local notation "D" => dot_S64x128_S1408x128_S64x1408_1_1_0_0_n_n

theorem lhs0 (i : S64x1408.Idx) (k : (D).contr.Idx) : ((D).lhsIdx i k 0).val = (i 0).val := by
  unfold DotDims.lhsIdx
  rw [dif_neg (show ¬(0 : Fin S64x128.rank) ∈ (D).lhsBatch by decide),
    dif_pos (show (0 : Fin S64x128.rank) ∈ (D).lhsNonContracting by decide)]
  rfl
theorem lhs1 (i : S64x1408.Idx) (k : (D).contr.Idx) : ((D).lhsIdx i k 1).val = (k ⟨0, by decide⟩).val :=
  (D).lhsIdx_val_of_single rfl i k
theorem rhs0 (i : S64x1408.Idx) (k : (D).contr.Idx) : ((D).rhsIdx i k 0).val = (i 1).val := by
  unfold DotDims.rhsIdx
  rw [dif_neg (show ¬(0 : Fin S1408x128.rank) ∈ (D).rhsBatch by decide),
    dif_pos (show (0 : Fin S1408x128.rank) ∈ (D).rhsNonContracting by decide)]
  rfl
theorem rhs1 (i : S64x1408.Idx) (k : (D).contr.Idx) : ((D).rhsIdx i k 1).val = (k ⟨0, by decide⟩).val :=
  (D).rhsIdx_val_of_single rfl i k

/-! ## One group's product, one group's scale, and the bias, at an entry -/

/-- The product of the two column slices from `off`, contracted over their 128 columns, at `(p, q)`. -/
theorem groupProduct_apply (off : ℕ) (h1 : S64x4096.Slices ![0, off] S64x128) (h2 : S1408x4096.Slices ![0, off] S1408x128)
    (X : Vec Ideal S64x4096 .f32) (W : Vec Ideal S1408x4096 .f32) (p : Fin 64) (q : Fin 1408) :
    matmul (F := Ideal) (φ₁ := .f32) (φ₂ := .f32) D (some .fp32)
      (extractStridedSlice S64x128 ![0, off] X h1 : FVec Ideal S64x128 .f32)
      (extractStridedSlice S1408x128 ![0, off] W h2 : FVec Ideal S1408x128 .f32)
      (constant S64x1408 .f32 0x00000000#32) (ix2 p q) = gdot X W p q off := by
  have ho : off + 128 ≤ 4096 := by
    have h := h1.2 ⟨1, by decide⟩
    change off + 128 ≤ 4096 at h
    exact h
  simp only [matmul]
  rw [Ideal.matmul_constant_zero_apply, ← Equiv.sum_comp (contrEquiv1 D 128 rfl rfl).symm]
  unfold gdot
  rw [Finset.sum_range]
  refine Finset.sum_congr rfl fun k _ => ?_
  have hk := contrEquiv1_symm_val D 128 rfl rfl k
  have hk128 : k.val < 128 := k.isLt
  have el : extractStridedSlice S64x128 ![0, off] X h1 ((D).lhsIdx (ix2 p q) ((contrEquiv1 D 128 rfl rfl).symm k))
      = xrow X p (off + k.val) := by
    unfold xrow
    refine extractStridedSlice_apply _ X h1 _ _ fun a => ?_
    match a with
    | ⟨0, _⟩ =>
      have e0 : ((D).lhsIdx (ix2 p q) ((contrEquiv1 D 128 rfl rfl).symm k) 0).val = p.val := lhs0 _ _
      exact (show p.val = 0 + ((D).lhsIdx (ix2 p q) ((contrEquiv1 D 128 rfl rfl).symm k) 0).val by omega)
    | ⟨1, _⟩ =>
      have e1 : ((D).lhsIdx (ix2 p q) ((contrEquiv1 D 128 rfl rfl).symm k) 1).val = k.val := (lhs1 _ _).trans hk
      have e2 : (off + k.val) % 4096 = off + k.val := Nat.mod_eq_of_lt (by omega)
      exact (show (off + k.val) % 4096 = off + ((D).lhsIdx (ix2 p q) ((contrEquiv1 D 128 rfl rfl).symm k) 1).val by omega)
  have er : extractStridedSlice S1408x128 ![0, off] W h2 ((D).rhsIdx (ix2 p q) ((contrEquiv1 D 128 rfl rfl).symm k))
      = wrow W q (off + k.val) := by
    unfold wrow
    refine extractStridedSlice_apply _ W h2 _ _ fun a => ?_
    match a with
    | ⟨0, _⟩ =>
      have e0 : ((D).rhsIdx (ix2 p q) ((contrEquiv1 D 128 rfl rfl).symm k) 0).val = q.val := rhs0 _ _
      exact (show q.val = 0 + ((D).rhsIdx (ix2 p q) ((contrEquiv1 D 128 rfl rfl).symm k) 0).val by omega)
    | ⟨1, _⟩ =>
      have e1 : ((D).rhsIdx (ix2 p q) ((contrEquiv1 D 128 rfl rfl).symm k) 1).val = k.val := (rhs1 _ _).trans hk
      have e2 : (off + k.val) % 4096 = off + k.val := Nat.mod_eq_of_lt (by omega)
      exact (show (off + k.val) % 4096 = off + ((D).rhsIdx (ix2 p q) ((contrEquiv1 D 128 rfl rfl).symm k) 1).val by omega)
  rw [el, er]

/-- Column `g` of the scales, turned into a row and repeated down the rows, at `(p, q)`. -/
theorem groupScale_apply (g : ℕ) (h : S1408x32.Slices ![0, g] S1408x1) (S : Vec Ideal S1408x32 .f32) (p : Fin 64) (q : Fin 1408) :
    broadcastTo S64x1408 (shapeCast S1x1408 (shapeCast S1408 (extractStridedSlice S1408x1 ![0, g] S h : FVec Ideal S1408x1 .f32)
      shapeCasts_S1408x1_S1408) shapeCasts_S1408_S1x1408) broadcasts_S1x1408_S64x1408 (ix2 p q) = srow S q g := by
  have hg : g + 1 ≤ 32 := by
    have h' := h.2 ⟨1, by decide⟩
    change g + 1 ≤ 32 at h'
    exact h'
  refine (broadcastTo_apply _ broadcasts_S1x1408_S64x1408 (ix2 p q) (ix2 (0 : Fin 1) q) fun a => ?_).trans ?_
  · match a with
    | ⟨0, _⟩ => rfl
    | ⟨1, _⟩ => rfl
  refine (shapeCast_apply _ shapeCasts_S1408_S1x1408 (ix2 (0 : Fin 1) q) (ix1 q) ?_).trans ?_
  · rw [Shape.rowMajor_val_one, Shape.rowMajor_val_two]; show q.val = 0 * 1408 + q.val; omega
  refine (shapeCast_apply _ shapeCasts_S1408x1_S1408 (ix1 q) (ix2 q (0 : Fin 1)) ?_).trans ?_
  · rw [Shape.rowMajor_val_two, Shape.rowMajor_val_one]; show q.val * 1 + 0 = q.val; omega
  unfold srow
  refine extractStridedSlice_apply _ S h _ _ fun a => ?_
  match a with
  | ⟨0, _⟩ => show q.val = 0 + q.val; omega
  | ⟨1, _⟩ => show g % 32 = g + 0; rw [Nat.mod_eq_of_lt (by omega)]; rfl

/-- The bias row repeated down the rows, at `(p, q)`. -/
theorem biasRow_apply (B : Vec Ideal S1x1408 .f32) (p : Fin 64) (q : Fin 1408) :
    broadcastTo S64x1408 (shapeCast S1x1408 B shapeCasts_S1x1408_S1x1408 : FVec Ideal S1x1408 .f32) broadcasts_S1x1408_S64x1408 (ix2 p q)
      = B (ix2 (0 : Fin 1) q) := by
  rw [shapeCast_self]
  refine broadcastTo_apply _ broadcasts_S1x1408_S64x1408 (ix2 p q) (ix2 (0 : Fin 1) q) fun a => ?_
  match a with
  | ⟨0, _⟩ => rfl
  | ⟨1, _⟩ => rfl

end Cert.KernelIdeal.Body

end
-- ==== Proof.StoredChain.lean ====
/-
  The whole stored value at an entry: the 32 groups in order, then the bias.

  The printed body carries the running sum through sixteen named pieces; unfolded, entry `(p, q)` of the stored
  value is  ((…((0 + T₀) + T₁) + …) + T₃₁) + B[0, q]  with  T_g = (one group's contraction from column 128·g) · S[q, g],
  which is the sum over `g < 32` written out from the left.
-/
import proofs.«173354_j62861141344487_2_alg».proof.Proof.StoredValue

set_option maxRecDepth 16384

noncomputable section

namespace Cert.KernelIdeal.Body

open Cert.KernelIdeal Cert.KernelIdeal.Gen
open Idealize.ShloMosaic Idealize.ShloMosaic.ValueIdx
open scoped BigOperators
open Finset

set_option maxHeartbeats 2000000 in
/-- Entry `(p, q)` of the stored value: the scaled group contractions summed over the 32 groups, plus the bias. -/
theorem stored_apply (X : Vec Ideal S64x4096 .f32) (W : Vec Ideal S1408x4096 .f32) (S : Vec Ideal S1408x32 .f32)
    (B : Vec Ideal S1x1408 .f32) (p : Fin 64) (q : Fin 1408) :
    stored (F := Ideal) X W S B (ix2 p q)
      = (∑ g ∈ range 32, gdot X W p q (128 * g) * srow S q g) + B (ix2 (0 : Fin 1) q) := by
  unfold stored k0_pay1 k0_pay2 k0_pay3 k0_pay4 k0_pay5 k0_pay6 k0_pay7 k0_pay8 k0_pay9 k0_pay10 k0_pay11 k0_pay12
    k0_pay13 k0_pay14 k0_pay15 k0_pay16
  simp only [addf_apply, mulf_apply, broadcast_apply, groupProduct_apply, groupScale_apply, biasRow_apply,
    Finset.sum_range_succ, Finset.sum_range_zero, Nat.reduceMul]
  have hzero : (FloatOps.ofBits (F := Ideal) FTy.f32 0x00000000#32 : EReal) = 0 := Ideal.ofBits_zero_f32
  rw [hzero]

end Cert.KernelIdeal.Body

end
-- ==== Proof.LibGroupScale.lean ====
/-
  A contraction whose right operand carries one scale per group of consecutive positions, in two arrangements.

  Let `x`, `w` be sequences and `s` a sequence of scales, one per group of `b` consecutive positions. Scaling first
  and contracting afterwards gives `∑ₖ x k · (w k · s (k / b))`; contracting each group by itself and scaling the
  group's partial sum gives `∑_g (∑_{j<b} x (b·g + j) · w (b·g + j)) · s g`. Over the reals the two are equal: the
  scale of a group is a common factor of the group's terms (distributivity), and the positions `b·g + j`, `j < b`,
  `g < a`, are exactly the positions below `a·b`, each once. Over the extended reals distributivity fails at the
  infinities, so the law is stated for sequences all of whose entries are finite.
-/
import Idealize.ShloMosaic.PureOps.Ideal

open scoped BigOperators
open Finset

namespace Cert.LibGroupScale

/-- A sum over the naturals below `a · b` is the sum over `a` groups of `b` consecutive ones. -/
theorem sum_range_groups {M : Type*} [AddCommMonoid M] (f : ℕ → M) (a b : ℕ) :
    ∑ g ∈ range a, ∑ j ∈ range b, f (b * g + j) = ∑ k ∈ range (a * b), f k := by
  induction a with
  | zero => simp
  | succ a ih => rw [sum_range_succ, ih, Nat.succ_mul, sum_range_add, Nat.mul_comm b a]

/-- Position `b · g + j` with `j < b` lies in group `g`. -/
theorem group_index (b g j : ℕ) (hj : j < b) : (b * g + j) / b = g := by
  have hb : 0 < b := by omega
  rw [Nat.mul_add_div hb, Nat.div_eq_of_lt hj, Nat.add_zero]

/-- The law over the reals: a group's scale is a common factor of the group's terms. -/
theorem grouped_eq_real (x w s : ℕ → ℝ) (a b : ℕ) :
    ∑ g ∈ range a, (∑ j ∈ range b, x (b * g + j) * w (b * g + j)) * s g
      = ∑ k ∈ range (a * b), x k * (w k * s (k / b)) := by
  rw [← sum_range_groups]
  refine sum_congr rfl fun g _ => ?_
  rw [sum_mul]
  refine sum_congr rfl fun j hj => ?_
  rw [group_index b g j (mem_range.mp hj)]; ring

/-- A finite sum of reals, read in the extended reals, is the sum of the terms read there. -/
theorem coe_sum {ι : Type*} (t : Finset ι) (f : ι → ℝ) :
    ∑ i ∈ t, (f i : EReal) = ((∑ i ∈ t, f i : ℝ) : EReal) := by
  classical
  induction t using Finset.induction_on with
  | empty => simp
  | insert a t ha ih => rw [sum_insert ha, sum_insert ha, ih, EReal.coe_add]

/-- The law over the extended reals, for sequences of finite entries. -/
theorem grouped_eq (x w s : ℕ → EReal) (a b : ℕ)
    (hx : ∀ k, x k ≠ ⊤ ∧ x k ≠ ⊥) (hw : ∀ k, w k ≠ ⊤ ∧ w k ≠ ⊥) (hs : ∀ k, s k ≠ ⊤ ∧ s k ≠ ⊥) :
    ∑ g ∈ range a, (∑ j ∈ range b, x (b * g + j) * w (b * g + j)) * s g
      = ∑ k ∈ range (a * b), x k * (w k * s (k / b)) := by
  obtain ⟨xr, rfl⟩ : ∃ xr : ℕ → ℝ, x = fun k => (xr k : EReal) :=
    ⟨fun k => (x k).toReal, funext fun k => (EReal.coe_toReal (hx k).1 (hx k).2).symm⟩
  obtain ⟨wr, rfl⟩ : ∃ wr : ℕ → ℝ, w = fun k => (wr k : EReal) :=
    ⟨fun k => (w k).toReal, funext fun k => (EReal.coe_toReal (hw k).1 (hw k).2).symm⟩
  obtain ⟨sr, rfl⟩ : ∃ sr : ℕ → ℝ, s = fun k => (sr k : EReal) :=
    ⟨fun k => (s k).toReal, funext fun k => (EReal.coe_toReal (hs k).1 (hs k).2).symm⟩
  simp only [← EReal.coe_mul, coe_sum]
  exact congrArg _ (grouped_eq_real xr wr sr a b)

end Cert.LibGroupScale
-- ==== Proof.QuantSpec.lean ====
/-
  The result as one function of the four argument arrays, in the two arrangements the two programs compute it in.

  `x` is 64 × 4096, `w` is 11008 × 4096 (one row per output feature), `s` is 11008 × 32 (one scale per output
  feature and group of 128 consecutive input features), `b` has one entry per output feature. Entry `(p, o)`:

    grouped : ∑_{g<32} (∑_{j<128} x[p, 128g+j] · w[o, 128g+j]) · s[o, g]  +  b[o]     (contract each group, then scale)
    dequant : ∑_{k<4096} x[p, k] · (w[o, k] · s[o, k / 128])              +  b[o]     (scale each weight, then contract)

  They agree when every entry of `x`, `w` and `s` is finite (the law of LibGroupScale, row by row); `b` is the same
  summand on both sides and may be anything.
-/
import Idealize.ShloMosaic.PureOps.Ideal
import Idealize.ShloMosaic.Lib.ValueIdx
import proofs.«173354_j62861141344487_2_alg».proof.Proof.LibGroupScale

noncomputable section

open scoped BigOperators
open Finset
open Idealize.ShloMosaic Idealize.ShloMosaic.ValueIdx

namespace Cert.QuantSpec

/-- Row `p` of the activations, row `o` of the weight codes and row `o` of the scales, read at a natural position
    (a position past the row's end wraps; none is met). -/
def arow (x : (⟨2, ![64, 4096]⟩ : Shape).Idx → EReal) (p : Fin 64) (k : ℕ) : EReal :=
  x (ix2 p ⟨k % 4096, Nat.mod_lt _ (by decide)⟩)
def brow (w : (⟨2, ![11008, 4096]⟩ : Shape).Idx → EReal) (o : Fin 11008) (k : ℕ) : EReal :=
  w (ix2 o ⟨k % 4096, Nat.mod_lt _ (by decide)⟩)
def crow (s : (⟨2, ![11008, 32]⟩ : Shape).Idx → EReal) (o : Fin 11008) (g : ℕ) : EReal :=
  s (ix2 o ⟨g % 32, Nat.mod_lt _ (by decide)⟩)

/-- Contract each group of 128 input features, scale the group's partial sum, add the groups up, add the bias. -/
def grouped (x : (⟨2, ![64, 4096]⟩ : Shape).Idx → EReal) (w : (⟨2, ![11008, 4096]⟩ : Shape).Idx → EReal)
    (s : (⟨2, ![11008, 32]⟩ : Shape).Idx → EReal) (b : Fin 11008 → EReal) : (⟨2, ![64, 11008]⟩ : Shape).Idx → EReal :=
  fun i => (∑ g ∈ range 32, (∑ j ∈ range 128, arow x (i 0) (128 * g + j) * brow w (i 1) (128 * g + j)) * crow s (i 1) g)
    + b (i 1)

/-- Scale each weight by its group's scale, contract over all 4096 input features, add the bias. -/
def dequant (x : (⟨2, ![64, 4096]⟩ : Shape).Idx → EReal) (w : (⟨2, ![11008, 4096]⟩ : Shape).Idx → EReal)
    (s : (⟨2, ![11008, 32]⟩ : Shape).Idx → EReal) (b : Fin 11008 → EReal) : (⟨2, ![64, 11008]⟩ : Shape).Idx → EReal :=
  fun i => (∑ k ∈ range 4096, arow x (i 0) k * (brow w (i 1) k * crow s (i 1) (k / 128))) + b (i 1)

/-- The two arrangements agree on arrays of finite entries. -/
theorem grouped_eq_dequant (x : (⟨2, ![64, 4096]⟩ : Shape).Idx → EReal) (w : (⟨2, ![11008, 4096]⟩ : Shape).Idx → EReal)
    (s : (⟨2, ![11008, 32]⟩ : Shape).Idx → EReal) (b : Fin 11008 → EReal)
    (hx : ∀ i, x i ≠ ⊤ ∧ x i ≠ ⊥) (hw : ∀ i, w i ≠ ⊤ ∧ w i ≠ ⊥) (hs : ∀ i, s i ≠ ⊤ ∧ s i ≠ ⊥) :
    grouped x w s b = dequant x w s b := by
  funext i
  unfold grouped dequant
  congr 1
  exact Cert.LibGroupScale.grouped_eq (arow x (i 0)) (brow w (i 1)) (crow s (i 1)) 32 128
    (fun k => hx _) (fun k => hw _) (fun k => hs _)

end Cert.QuantSpec

end
-- ==== Proof.IdealBlocks.lean ====
/-
  The idealized kernel's run, with the result array named.

  At grid point `t` the body is handed the whole activations, rows `1408·t …` of the weight codes and of the scales,
  and the matching stretch of the bias row; it writes back columns `1408·t …` of the result. The last point's block
  overhangs the arrays: only 1152 of its 1408 rows (columns, for the bias and the result) exist, the fetches fill only
  that leading part of the buffers, and the write-back writes only that leading part of the result's buffer.

  Why the unnamed rest of the buffers does not matter: entry `(p, q)` of what the body stores reads row `q` only of
  the weight block and of the scale block and column `q` only of the bias block (StoredChain). So on the leading
  part — the only part written back — the stored value is a function of the leading parts of the inputs, which
  are the arrays' own rows: there it is the `grouped` arrangement (QuantSpec) of the arrays at row `1408·t + q`.
  The eight written-back blocks tile the result array, so the array ends holding `grouped` of the arrays.
-/
import proofs.«173354_j62861141344487_2_alg».proof.Proof.StoredChain
import proofs.«173354_j62861141344487_2_alg».proof.Proof.QuantSpec
import Idealize.ShloMosaic.Lib.ValueIdxCoords

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open scoped BigOperators
open Finset

local notation "𝕄" => MT nD τ sig Unit (Elt Ideal) ℕ (UR sig nD τ) ℕ

variable (m : (ℓ : Loc nD τ sig) → Buf (Elt Ideal) ℓ) (ρ : Dev nD → PrngReg)

/-! ## The stored value against the whole arrays, entry by entry -/

/-- If block row `q` of the weight codes and of the scales is array row `o`, block column `q` of the bias is the bias
    of `o`, and row `p` of the activations is the array's, then entry `(p, q)` of the stored value is entry `(p, o)`
    of the `grouped` arrangement of the arrays. -/
theorem stored_eq_grouped (X0 : Vec Ideal S64x4096 .f32) (X1 : Vec Ideal S1408x4096 .f32) (X2 : Vec Ideal S1408x32 .f32)
    (X3 : Vec Ideal S1x1408 .f32) (A0 : S64x4096.Idx → EReal) (A1 : S11008x4096.Idx → EReal) (A2 : S11008x32.Idx → EReal)
    (b : Fin 11008 → EReal) (p : Fin 64) (q : Fin 1408) (o : Fin 11008)
    (h0 : ∀ k : Fin 4096, X0 (ix2 p k) = A0 (ix2 p k)) (h1 : ∀ k : Fin 4096, X1 (ix2 q k) = A1 (ix2 o k))
    (h2 : ∀ g : Fin 32, X2 (ix2 q g) = A2 (ix2 o g)) (h3 : X3 (ix2 (0 : Fin 1) q) = b o) :
    stored (F := Ideal) X0 X1 X2 X3 (ix2 p q) = Cert.QuantSpec.grouped A0 A1 A2 b (ix2 p o) := by
  rw [stored_apply, h3]
  unfold Cert.QuantSpec.grouped
  show _ + b o = _ + b o
  congr 1
  refine sum_congr rfl fun g _ => ?_
  unfold gdot srow xrow wrow Cert.QuantSpec.arow Cert.QuantSpec.brow Cert.QuantSpec.crow
  rw [h2]
  show _ * A2 (ix2 o _) = _ * A2 (ix2 o _)
  congr 1
  refine sum_congr rfl fun j _ => ?_
  rw [h0, h1]

/-! ## The schedule, decided over the eight points -/

theorem hz : (![0, 0] : Fin 2 → Nat) = fun _ => 0 := funext fun a => by fin_cases a <;> rfl

/-- Where each window's block sits at point `t`, and how much of it the transfers move: the activations whole; the
    weight, scale, bias and result blocks at `t` along the output-feature axis, all cut alike there. -/
theorem grid_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_4.xsize (grid0.coords t) (0 : Fin 2) = 64
    ∧ win0_1.xsize (grid0.coords t) (0 : Fin 2) = win0_4.xsize (grid0.coords t) (1 : Fin 2)
    ∧ win0_1.xsize (grid0.coords t) (1 : Fin 2) = 4096
    ∧ win0_2.xsize (grid0.coords t) (0 : Fin 2) = win0_4.xsize (grid0.coords t) (1 : Fin 2)
    ∧ win0_2.xsize (grid0.coords t) (1 : Fin 2) = 32
    ∧ win0_3.xsize (grid0.coords t) (0 : Fin 2) = 1
    ∧ win0_3.xsize (grid0.coords t) (1 : Fin 2) = win0_4.xsize (grid0.coords t) (1 : Fin 2)
    ∧ t.val * 1408 + win0_4.xsize (grid0.coords t) (1 : Fin 2) ≤ 11008
    ∧ win0_4.xsize (grid0.coords t) (1 : Fin 2) ≤ 1408
    ∧ (t.val < 7 → win0_4.xsize (grid0.coords t) (1 : Fin 2) = 1408)
    ∧ (t.val = 7 → win0_4.xsize (grid0.coords t) (1 : Fin 2) = 1152) :=
  (by decide +kernel : ∀ t : Fin grid0.N, _)

/-- A filled buffer read inside the part the transfer moves reads what was filled in. -/
theorem fill_read {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-! ## The proof data -/

/-- The result array as the run leaves it: the `grouped` arrangement of the arrays the region finds (the bias as
    the 1 × 11008 row the host made of it). -/
def G (c : Dev nD) : S64x11008.Idx → EReal :=
  Cert.QuantSpec.grouped (V m c main_arg0) (V m c main_arg1) (V m c main_arg2) (fun o => V m c main_v0 (ix2 (0 : Fin 1) o))

/-- Its block at point `t`, the part inside the array. -/
def Gblk (c : Dev nD) (t : Fin cfg0.N) : (win0_4.xblock (grid0.coords t)).Idx → EReal :=
  (win0_4.blk t).view.read (Elt Ideal) (G m c)

/-- After the body at point `t`: the activations' buffer holds the array; each clipped input's its block on the moved
    part; the result's buffer block `t` of `G` on the moved part (elsewhere the zero word, which nothing reads). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits (F := Ideal) .f32 0#32) (iblk m c 1 t)
    | ⟨2, _⟩ => win0_2.fill (grid0.coords t) (fun _ => Scalar.ofBits (F := Ideal) .f32 0#32) (iblk m c 2 t)
    | ⟨3, _⟩ => win0_3.fill (grid0.coords t) (fun _ => Scalar.ofBits (F := Ideal) .f32 0#32) (iblk m c 3 t)
    | ⟨4, _⟩ => win0_4.fill (grid0.coords t) (fun _ => Scalar.ofBits (F := Ideal) .f32 0#32) (Gblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) (fun _ => Scalar.ofBits (F := Ideal) .f32 0#32) (iblk m c 1 t) := by dsimp only [dats]
theorem after2 (c : Dev nD) (t : Fin cfg0.N) :
    (dats m 0 c).after 2 t = win0_2.fill (grid0.coords t) (fun _ => Scalar.ofBits (F := Ideal) .f32 0#32) (iblk m c 2 t) := by dsimp only [dats]
theorem after3 (c : Dev nD) (t : Fin cfg0.N) :
    (dats m 0 c).after 3 t = win0_3.fill (grid0.coords t) (fun _ => Scalar.ofBits (F := Ideal) .f32 0#32) (iblk m c 3 t) := by dsimp only [dats]
theorem after4 (c : Dev nD) (t : Fin cfg0.N) :
    (dats m 0 c).after 4 t = win0_4.fill (grid0.coords t) (fun _ => Scalar.ofBits (F := Ideal) .f32 0#32) (Gblk m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) :
    (dats m 0 c).before 1 t d = win0_1.fill (grid0.coords t) d (iblk m c 1 t) := by
  unfold Dat.before; rw [if_pos (fetch0_1 t)]; rfl
theorem before2 (c : Dev nD) (t : Fin cfg0.N) (d) :
    (dats m 0 c).before 2 t d = win0_2.fill (grid0.coords t) d (iblk m c 2 t) := by
  unfold Dat.before; rw [if_pos (fetch0_2 t)]; rfl
theorem before3 (c : Dev nD) (t : Fin cfg0.N) (d) :
    (dats m 0 c).before 3 t d = win0_3.fill (grid0.coords t) d (iblk m c 3 t) := by
  unfold Dat.before; rw [if_pos (fetch0_3 t)]; rfl

/-! ## What the body leaves on the written-back part -/

/-- On the part of the result's buffer that is written back, what the body stores is block `t` of `G` — whatever
    the clipped inputs' buffers hold past the arrays' end (`d1`, `d2`, `d3`). -/
theorem cut_out4 (c : Dev nD) (t : Fin cfg0.N) (d1 : win0_1.block.Idx → EReal) (d2 : win0_2.block.Idx → EReal)
    (d3 : win0_3.block.Idx → EReal) :
    win0_4.cut (grid0.coords t) (out4 (F := Ideal) (iblk m c 0 t) (win0_1.fill (grid0.coords t) d1 (iblk m c 1 t))
      (win0_2.fill (grid0.coords t) d2 (iblk m c 2 t)) (win0_3.fill (grid0.coords t) d3 (iblk m c 3 t))) = Gblk m c t := by
  obtain ⟨i00, i01, i10, i11, i20, i21, i30, i31, i40, i41, x40, x10, x11, x20, x21, x30, x31, xin, xle, -, -⟩ := grid_facts t
  funext j
  have hj0 : (j 0).val < win0_4.xsize (grid0.coords t) (0 : Fin 2) := (j 0).isLt
  have hj1 : (j 1).val < win0_4.xsize (grid0.coords t) (1 : Fin 2) := (j 1).isLt
  have hp : (j 0).val < 64 := by omega
  have hq : (j 1).val < 1408 := by omega
  have ho : t.val * 1408 + (j 1).val < 11008 := by omega
  show out4 (F := Ideal) _ _ _ _ (win0_4.xinj (grid0.coords t) j) = G m c ((win0_4.blk t).view.emb j)
  unfold out4
  rw [View.canon_unit_zero hz]
  simp only [View.ld_unit_zero (S := S64x4096) hz, View.ld_unit_zero (S := S1408x4096) hz,
    View.ld_unit_zero (S := S1408x32) hz, View.ld_unit_zero (S := S1x1408) hz]
  have exin : win0_4.xinj (grid0.coords t) j = ix2 (⟨(j 0).val, hp⟩ : Fin 64) (⟨(j 1).val, hq⟩ : Fin 1408) :=
    funext fun a => Fin.ext (by match a with | ⟨0, _⟩ => rfl | ⟨1, _⟩ => rfl)
  have eemb : (win0_4.blk t).view.emb j = ix2 (⟨(j 0).val, hp⟩ : Fin 64) (⟨t.val * 1408 + (j 1).val, ho⟩ : Fin 11008) :=
    funext fun a => Fin.ext (by
      match a with
      | ⟨0, _⟩ => show win0_4.index t (0 : Fin 2) * 64 + 1 * (j 0).val = (j 0).val; omega
      | ⟨1, _⟩ => show win0_4.index t (1 : Fin 2) * 1408 + 1 * (j 1).val = t.val * 1408 + (j 1).val; omega)
  rw [exin, eemb]
  unfold G
  refine stored_eq_grouped _ _ _ _ _ _ _ _ _ _ _ (fun k => ?_) (fun k => ?_) (fun g => ?_) ?_
  · -- the activations' block is the whole array
    show V m c main_arg0 ((win0_0.blk t).view.emb (ix2 (⟨(j 0).val, hp⟩ : Fin 64) k)) = V m c main_arg0 (ix2 (⟨(j 0).val, hp⟩ : Fin 64) k)
    refine congrArg _ (funext fun a => Fin.ext ?_)
    match a with
    | ⟨0, _⟩ => show win0_0.index t (0 : Fin 2) * 64 + 1 * (j 0).val = (j 0).val; omega
    | ⟨1, _⟩ => show win0_0.index t (1 : Fin 2) * 4096 + 1 * k.val = k.val; omega
  · -- row `q` of the weight block, inside the moved part, is row `1408·t + q` of the array
    have hk : k.val < 4096 := k.isLt
    refine (fill_read win0_1 (grid0.coords t) d1 (iblk m c 1 t) (ix2 (⟨(j 1).val, hq⟩ : Fin 1408) k) (fun a => by
      match a with
      | ⟨0, _⟩ => show (j 1).val < win0_1.xsize (grid0.coords t) (0 : Fin 2); omega
      | ⟨1, _⟩ => show k.val < win0_1.xsize (grid0.coords t) (1 : Fin 2); omega)).trans ?_
    show V m c main_arg1 ((win0_1.blk t).view.emb _) = V m c main_arg1 _
    refine congrArg _ (funext fun a => Fin.ext ?_)
    match a with
    | ⟨0, _⟩ => show win0_1.index t (0 : Fin 2) * 1408 + 1 * (j 1).val = t.val * 1408 + (j 1).val; omega
    | ⟨1, _⟩ => show win0_1.index t (1 : Fin 2) * 4096 + 1 * k.val = k.val; omega
  · -- likewise the scales
    have hg : g.val < 32 := g.isLt
    refine (fill_read win0_2 (grid0.coords t) d2 (iblk m c 2 t) (ix2 (⟨(j 1).val, hq⟩ : Fin 1408) g) (fun a => by
      match a with
      | ⟨0, _⟩ => show (j 1).val < win0_2.xsize (grid0.coords t) (0 : Fin 2); omega
      | ⟨1, _⟩ => show g.val < win0_2.xsize (grid0.coords t) (1 : Fin 2); omega)).trans ?_
    show V m c main_arg2 ((win0_2.blk t).view.emb _) = V m c main_arg2 _
    refine congrArg _ (funext fun a => Fin.ext ?_)
    match a with
    | ⟨0, _⟩ => show win0_2.index t (0 : Fin 2) * 1408 + 1 * (j 1).val = t.val * 1408 + (j 1).val; omega
    | ⟨1, _⟩ => show win0_2.index t (1 : Fin 2) * 32 + 1 * g.val = g.val; omega
  · -- and column `q` of the bias block is entry `1408·t + q` of the bias row
    refine (fill_read win0_3 (grid0.coords t) d3 (iblk m c 3 t) (ix2 (0 : Fin 1) (⟨(j 1).val, hq⟩ : Fin 1408)) (fun a => by
      match a with
      | ⟨0, _⟩ => show 0 < win0_3.xsize (grid0.coords t) (0 : Fin 2); omega
      | ⟨1, _⟩ => show (j 1).val < win0_3.xsize (grid0.coords t) (1 : Fin 2); omega)).trans ?_
    show V m c main_v0 ((win0_3.blk t).view.emb _) = V m c main_v0 _
    refine congrArg _ (funext fun a => Fin.ext ?_)
    match a with
    | ⟨0, _⟩ => show win0_3.index t (0 : Fin 2) * 1 + 1 * 0 = 0; omega
    | ⟨1, _⟩ => show win0_3.index t (1 : Fin 2) * 1408 + 1 * (j 1).val = t.val * 1408 + (j 1).val; omega

end Cert.KernelIdeal.Body

end
-- ==== Proof.IdealRun.lean ====
/-
  The idealized kernel's run: the body obligation at every point, the frame run, and the result array after it.

  The body is handed each clipped input's buffer as "its block on the moved part, anything elsewhere" and hands the
  result's buffer back described on the moved part only; there what it stored is block `t` of `G` (IdealBlocks).
  Point `t` writes back columns `1408·t … 1408·t + 1407` of the result (the last point: `9856 … 11007`), so the eight
  points tile the 11008 columns and the array ends holding `G`: the `grouped` arrangement of the argument arrays.
-/
import proofs.«173354_j62861141344487_2_alg».proof.Proof.IdealBlocks
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t))))
    ∗ (∃ d, owns (c : Thread nD τ) (st0_4 t) fullShare
        ((cfg0.win 4).fill (cfg0.grid.coords t) d ((cfg0.win 4).cut (cfg0.grid.coords t) ((dats m 0 c).after 4 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel (F := Ideal) c Set.univ (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1
      (win0_1.cut (grid0.coords t) (win0_1.fill (grid0.coords t) (fun _ => Scalar.ofBits (F := Ideal) .f32 0#32) (iblk m c 1 t))))
    rw [win0_1.cut_fill]; try iexact H1
  isplitl [H2]
  · iexists d2
    change _ ⊢ owns (c : Thread nD τ) (st0_2 t) fullShare (win0_2.fill (grid0.coords t) d2
      (win0_2.cut (grid0.coords t) (win0_2.fill (grid0.coords t) (fun _ => Scalar.ofBits (F := Ideal) .f32 0#32) (iblk m c 2 t))))
    rw [win0_2.cut_fill]; try iexact H2
  isplitl [H3]
  · iexists d3
    change _ ⊢ owns (c : Thread nD τ) (st0_3 t) fullShare (win0_3.fill (grid0.coords t) d3
      (win0_3.cut (grid0.coords t) (win0_3.fill (grid0.coords t) (fun _ => Scalar.ofBits (F := Ideal) .f32 0#32) (iblk m c 3 t))))
    rw [win0_3.cut_fill]; try iexact H3
  · -- the result's buffer: on the moved part what was stored is block `t` of `G`; elsewhere it is what it is
    iexists (out4 (F := Ideal) (iblk m c 0 t) (win0_1.fill (grid0.coords t) d1 (iblk m c 1 t))
      (win0_2.fill (grid0.coords t) d2 (iblk m c 2 t)) (win0_3.fill (grid0.coords t) d3 (iblk m c 3 t)))
    change _ ⊢ owns (c : Thread nD τ) (st0_4 t) fullShare (win0_4.fill (grid0.coords t)
      (out4 (F := Ideal) (iblk m c 0 t) (win0_1.fill (grid0.coords t) d1 (iblk m c 1 t))
        (win0_2.fill (grid0.coords t) d2 (iblk m c 2 t)) (win0_3.fill (grid0.coords t) d3 (iblk m c 3 t)))
      (win0_4.cut (grid0.coords t) (win0_4.fill (grid0.coords t) (fun _ => Scalar.ofBits (F := Ideal) .f32 0#32) (Gblk m c t))))
    rw [win0_4.cut_fill, ← cut_out4 m c t d1 d2 d3, win0_4.fill_cut]; try iexact H4

theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## The result array after the run -/

/-- What point `t` writes back is block `t` of `G`. -/
theorem flushed4_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after4]
  exact win0_4.cut_fill _ _ _

/-- An entry of the result array is in point `t`'s block iff its coordinates are in the block's ranges, the range on
    the output-feature axis cut at the array's end. -/
theorem mem_blk4 (t : Fin cfg0.N) (i : S64x11008.Idx) :
    i ∈ ((cfg0.win 4).blk t).view.set ↔ ∀ a : Fin 2, win0_4.index t a * S64x1408.size a ≤ (i a).val
      ∧ (i a).val < win0_4.index t a * S64x1408.size a + win0_4.xsize (grid0.coords t) a := by
  show i ∈ ((View.whole main_v1).slice (win0_4.rect t)).set ↔ _
  rw [View.set_slice_whole, Rect.mem_set_unit]
  exact Iff.rfl

/-- Every entry of the result array is written back by some point: column `o` by point `o / 1408`. -/
theorem covered4 (i : S64x11008.Idx) :
    ∃ t : Fin cfg0.N, (cfg0.win 4).flush t = true ∧ i ∈ ((cfg0.win 4).blk t).view.set := by
  have h0 : (i 0).val < 64 := idx2_lt0 i
  have h1 : (i 1).val < 11008 := idx2_lt1 i
  have hN : (i 1).val / 1408 < cfg0.N := by rw [show cfg0.N = 8 from N_0]; omega
  obtain ⟨-, -, -, -, -, -, -, -, i40, i41, x40, -, -, -, -, -, -, -, -, xlt, xeq⟩ := grid_facts ⟨(i 1).val / 1408, hN⟩
  have i41' : win0_4.index ⟨(i 1).val / 1408, hN⟩ (1 : Fin 2) = (i 1).val / 1408 := i41
  refine ⟨⟨(i 1).val / 1408, hN⟩, flush0_4 _, (mem_blk4 _ i).mpr fun a => ?_⟩
  match a with
  | ⟨0, _⟩ =>
    show win0_4.index ⟨(i 1).val / 1408, hN⟩ (0 : Fin 2) * 64 ≤ (i 0).val
      ∧ (i 0).val < win0_4.index ⟨(i 1).val / 1408, hN⟩ (0 : Fin 2) * 64 + win0_4.xsize (grid0.coords ⟨(i 1).val / 1408, hN⟩) (0 : Fin 2)
    omega
  | ⟨1, _⟩ =>
    show win0_4.index ⟨(i 1).val / 1408, hN⟩ (1 : Fin 2) * 1408 ≤ (i 1).val
      ∧ (i 1).val < win0_4.index ⟨(i 1).val / 1408, hN⟩ (1 : Fin 2) * 1408 + win0_4.xsize (grid0.coords ⟨(i 1).val / 1408, hN⟩) (1 : Fin 2)
    rcases Nat.lt_or_ge ((i 1).val / 1408) 7 with h | h
    · have := xlt h; omega
    · have := xeq (show (i 1).val / 1408 = 7 by omega); omega

/-- The result array ends holding `G`. -/
theorem final4 (c : Dev nD) : (dats m 0 c).arrAt 4 cfg0.N = G m c :=
  (dats m 0 c).arrAt_eq_of_cover 4 (G m c) (fun t _ => flushed4_eq m c t) covered4

/-- `G` in terms of the argument arrays: no host operation before the region writes the first three, and the bias
    row the host made is the bias vector in the same order. -/
theorem G_eq (c : Dev nD) : G m c = Cert.QuantSpec.grouped (m ((c : Thread nD τ).loc main_arg0))
    (m ((c : Thread nD τ).loc main_arg1)) (m ((c : Thread nD τ).loc main_arg2))
    (fun o => m ((c : Thread nD τ).loc main_arg3) (ix1 o)) := by
  unfold G
  rw [V_main_arg0, V_main_arg1, V_main_arg2]
  congr 1
  funext o
  have e : (V m c main_v0 : S1x11008.Idx → EReal)
      = shapeCast S1x11008 (m ((c : Thread nD τ).loc main_arg3)) shapeCasts_S11008_S1x11008 := by
    dsimp only [Gen.V, Gen.hostOps0]; after_results; rfl
  rw [e]
  exact shapeCast_apply _ _ (ix2 (0 : Fin 1) o) (ix1 o) (by
    rw [Shape.rowMajor_val_one, Shape.rowMajor_val_two]; show o.val = 0 * 11008 + o.val; omega)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The run with the result named: the result array ends at the `grouped` arrangement of the arguments, and the
    arguments end unchanged. -/
theorem run_value : θ_run defs (onTc (τ := τ) (main (F := Ideal))) ⟨m, fun _ => 0, ρ⟩ (fun r => ∀ c : Dev nD,
      r.2.mem ((c.tc : Thread nD τ).loc main_v1) = Cert.QuantSpec.grouped (m ((c : Thread nD τ).loc main_arg0))
        (m ((c : Thread nD τ).loc main_arg1)) (m ((c : Thread nD τ).loc main_arg2))
        (fun o => m ((c : Thread nD τ).loc main_arg3) (ix1 o))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).1 4).trans (final4 m c)).trans (G_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).2 main_arg3 (Pipeline.mem_restRefs_of main_arg3 (by decide) (by decide))).trans (V_main_arg3 m c)⟩)
    (run_main m ρ)

end Cert.KernelIdeal.Body

end
-- ==== Proof.RefValue.lean ====
/-
  The reference's result is the `dequant` arrangement of its arguments.

  The reference views the weight codes as 11008 × 32 × 128, multiplies by the scales repeated along the last axis,
  views the product as 11008 × 4096 again, contracts it with the activations over the 4096 input features and adds
  the bias repeated down the rows. Read at entry `(p, o)`: position `k` of row `o` of the product is
  `w[o, k] · s[o, k / 128]` — the two views are the same row-major order, so element `(o, k)` is element
  `(o, k / 128, k mod 128)` —, and the entry is `∑ₖ x[p, k] · (w[o, k] · s[o, k / 128]) + b[o]`.
-/
import proofs.«173354_j62861141344487_2_alg».proof.Proof.Gen.ReferenceIdeal.Read
import proofs.«173354_j62861141344487_2_alg».proof.Proof.QuantSpec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators
open Finset

/-- The contraction reads the activations at `(p, k)`, -/
theorem lidx_eq (i : S64x11008.Idx) (k : Fin 4096) : lidx_main_v5 i k = ix2 (i 0) k :=
  funext fun a => Fin.ext (by match a with | ⟨0, _⟩ => rfl | ⟨1, _⟩ => rfl)

/-- the weight codes, through the two views, at `(o, k)`, -/
theorem widx_eq (i : S64x11008.Idx) (k : Fin 4096) : idx_main_v0 (idx_main_v4 (ridx_main_v5 i k)) = ix2 (i 1) k :=
  funext fun a => Fin.ext (by
    have h1 : (i 1).val < 11008 := idx2_lt1 i
    have hk : k.val < 4096 := k.isLt
    match a with
    | ⟨0, _⟩ =>
      show ((((i 1).val * 4096 + k.val) / 4096 * 32 + ((i 1).val * 4096 + k.val) / 128 % 32) * 128
        + ((i 1).val * 4096 + k.val) % 128) / 4096 = (i 1).val
      omega
    | ⟨1, _⟩ =>
      show ((((i 1).val * 4096 + k.val) / 4096 * 32 + ((i 1).val * 4096 + k.val) / 128 % 32) * 128
        + ((i 1).val * 4096 + k.val) % 128) % 4096 = k.val
      omega)

/-- the scales at `(o, k / 128)`, -/
theorem sidx_eq (i : S64x11008.Idx) (k : Fin 4096) :
    idx_main_v1 (idx_main_v2 (idx_main_v4 (ridx_main_v5 i k)))
      = ix2 (i 1) (⟨k.val / 128, by have := k.isLt; omega⟩ : Fin 32) :=
  funext fun a => Fin.ext (by
    have h1 : (i 1).val < 11008 := idx2_lt1 i
    have hk : k.val < 4096 := k.isLt
    match a with
    | ⟨0, _⟩ => show ((i 1).val * 4096 + k.val) / 4096 = (i 1).val; omega
    | ⟨1, _⟩ => show ((i 1).val * 4096 + k.val) / 128 % 32 = k.val / 128; omega)

/-- and the bias at `o`. -/
theorem bidx_eq (i : S64x11008.Idx) : idx_main_v6 (idx_main_v7 i) = ix1 (i 1) :=
  funext fun a => Fin.ext (by match a with | ⟨0, _⟩ => rfl)

/-- The reference's last stage is `dequant` of the four arguments. -/
theorem ref_eq (x0 : (⟨S64x4096, .f32⟩ : BufTy).Contents (Elt Ideal)) (x1 : (⟨S11008x4096, .f32⟩ : BufTy).Contents (Elt Ideal))
    (x2 : (⟨S11008x32, .f32⟩ : BufTy).Contents (Elt Ideal)) (x3 : (⟨S11008, .f32⟩ : BufTy).Contents (Elt Ideal)) :
    val_main_v8 (F := Ideal) x0 x1 x2 x3 = Cert.QuantSpec.dequant x0 x1 x2 (fun o => x3 (ix1 o)) := by
  funext i
  rw [val_main_v8_apply, val_main_v5_apply, val_main_v7_apply, val_main_v6_apply, bidx_eq]
  unfold Cert.QuantSpec.dequant
  show (∑ k : Fin 4096, _) + _ = _
  congr 1
  rw [Finset.sum_range]
  refine sum_congr rfl fun k _ => ?_
  rw [val_main_v4_apply, val_main_v3_apply, val_main_v0_apply, val_main_v2_apply, val_main_v1_apply, lidx_eq, widx_eq, sidx_eq]
  unfold Cert.QuantSpec.arow Cert.QuantSpec.brow Cert.QuantSpec.crow
  have e1 : (⟨k.val % 4096, Nat.mod_lt _ (by decide)⟩ : Fin 4096) = k := Fin.ext (Nat.mod_eq_of_lt k.isLt)
  have e2 : (⟨k.val / 128 % 32, Nat.mod_lt _ (by decide)⟩ : Fin 32) = ⟨k.val / 128, by have := k.isLt; omega⟩ :=
    Fin.ext (Nat.mod_eq_of_lt (by have := k.isLt; omega))
  rw [e1, e2]
  rfl

end Cert.ReferenceIdeal.RefValue

end
-- ==== Proof.FiniteInputs.lean ====
/-
  The precondition, read: every entry of the activations, of the weight codes and of the scales is a real number.

  The printed predicate is the conjunction, over the four arguments, of "every entry `e` has `|e| < +∞`". An
  extended real whose absolute value `max e (−e)` is below `+∞` is neither infinity. (The bias needs no such
  fact: it is the same summand in both programs.)
-/
import proofs.«173354_j62861141344487_2_alg».proof.Pre_finite_inputs
import Idealize.ShloMosaic.PureOps.Ideal
import Idealize.ShloMosaic.Lib.ValueIdx
import Idealize.ShloMosaic.Lib.ReduceAll

noncomputable section

namespace Cert.FiniteInputs

open Idealize.ShloMosaic Idealize.ShloMosaic.ValueIdx Cert.Pre_finite_inputs

/-- The scalar shape has one index. -/
instance : Subsingleton S_.Idx := ⟨fun a b => funext fun d => d.elim0⟩

/-- An entry whose absolute value compares below `+∞` is finite. -/
theorem finite_of_abs_lt_inf (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  change BitVec.ofBool (decide (max x (-x) < ⊤)) = 1#1 at h
  have hlt : max x (-x) < ⊤ := by
    by_contra hc
    rw [decide_eq_false hc] at h
    exact absurd h (by decide)
  constructor
  · rintro rfl; simp at hlt
  · rintro rfl; simp at hlt

variable [Cert.Pre_finite_inputs.Facts]

/-- The printed predicate holds only of arrays whose first three have finite entries throughout. -/
theorem finite_of_pre (a0 : FVec Ideal S64x4096 .f32) (a1 : FVec Ideal S11008x4096 .f32) (a2 : FVec Ideal S11008x32 .f32)
    (a3 : FVec Ideal S11008 .f32) (h : Cert.Pre_finite_inputs.fn (F := Ideal) a0 a1 a2 a3 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have h' := congrFun h ix0
  dsimp only [Cert.Pre_finite_inputs.fn, Cert.Pre_finite_inputs.fn_part1] at h'
  obtain ⟨h012, -⟩ := IntOp.andi_eq_one.mp h'
  obtain ⟨h01, h2⟩ := IntOp.andi_eq_one.mp h012
  obtain ⟨h0, h1⟩ := IntOp.andi_eq_one.mp h01
  exact ⟨fun i => finite_of_abs_lt_inf (a0 i) (Host.reduce_andi_all _ _ _ _ ix0 h0 i),
    fun i => finite_of_abs_lt_inf (a1 i) (Host.reduce_andi_all _ _ _ _ ix0 h1 i),
    fun i => finite_of_abs_lt_inf (a2 i) (Host.reduce_andi_all _ _ _ _ ix0 h2 i)⟩

end Cert.FiniteInputs

end
-- ==== Proof.lean ====
/-
  A linear layer whose weights are stored as codes with one scale per output feature and group of 128 input
  features:  out[p, o] = ∑ₖ x[p, k] · (w[o, k] · s[o, k / 128]) + b[o],  x : 64 × 4096, w : 11008 × 4096,
  s : 11008 × 32, b : 11008.

  The reference scales every weight and contracts over all 4096 input features. The kernel walks the 11008 output
  features in eight blocks of 1408; within a block it contracts each group of 128 input features by itself,
  multiplies the group's partial sum by the group's scale, and adds the 32 groups up in order, then the bias:

      out[p, o] = ∑_{g<32} (∑_{j<128} x[p, 128g + j] · w[o, 128g + j]) · s[o, g] + b[o].

  Over the extended reals the two agree when `x`, `w`, `s` have finite entries — the group's scale is a common
  factor of the group's terms, and distributivity needs finiteness — which is the precondition. The last block
  overhangs the arrays (8 · 1408 > 11008); an entry of the result depends on its own row of `w` and `s` and its own
  entry of `b` only, so the rows past the arrays' end, whatever the buffers hold there, reach no entry that is
  written back.

  The modules: KernelBody / KernelIdealBody (the body as one memory transaction), KernelFrame (the printed kernel's
  frame), StoredValue / StoredChain (the stored value at an entry), QuantSpec over LibGroupScale (the two
  arrangements and the law), IdealBlocks / IdealRun (the idealized kernel's run with the result named), RefValue
  (the reference's result), FiniteInputs (the precondition read).
-/
import proofs.«173354_j62861141344487_2_alg».proof.Defs
import proofs.«173354_j62861141344487_2_alg».proof.Proof.Gen.Kernel
import proofs.«173354_j62861141344487_2_alg».proof.Proof.Gen.Kernel.Skeleton
import proofs.«173354_j62861141344487_2_alg».proof.Proof.Gen.Kernel.Launch
import proofs.«173354_j62861141344487_2_alg».proof.Proof.Gen.Kernel.Points
import proofs.«173354_j62861141344487_2_alg».proof.Proof.Gen.Kernel.Frame
import proofs.«173354_j62861141344487_2_alg».proof.Proof.Gen.KernelIdeal
import proofs.«173354_j62861141344487_2_alg».proof.Proof.Gen.KernelIdeal.Skeleton
import proofs.«173354_j62861141344487_2_alg».proof.Proof.Gen.KernelIdeal.Launch
import proofs.«173354_j62861141344487_2_alg».proof.Proof.Gen.KernelIdeal.Points
import proofs.«173354_j62861141344487_2_alg».proof.Proof.Gen.KernelIdeal.Frame
import proofs.«173354_j62861141344487_2_alg».proof.Proof.Gen.ReferenceIdeal
import proofs.«173354_j62861141344487_2_alg».proof.Proof.Gen.Pre_finite_inputs
import proofs.«173354_j62861141344487_2_alg».proof.Proof.Gen.ReferenceIdeal.Run
import proofs.«173354_j62861141344487_2_alg».proof.Proof.Gen.ReferenceIdeal.Read
import proofs.«173354_j62861141344487_2_alg».proof.Proof.KernelFrame
import proofs.«173354_j62861141344487_2_alg».proof.Proof.IdealRun
import proofs.«173354_j62861141344487_2_alg».proof.Proof.RefValue
import proofs.«173354_j62861141344487_2_alg».proof.Proof.FiniteInputs
import Idealize.ShloMosaic.Adequacy
import Idealize.ShloMosaic.Init

noncomputable section

namespace Cert.Proof

open Idealize.ShloMosaic Idealize.ShloMosaic.TcCoe Idealize.SL.Sem

/-- The printed kernel runs to the end and leaves its arguments as it found them. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, the idealized kernel ends with the `grouped` arrangement of the
    arguments and the reference with the `dequant` arrangement; under the precondition the arguments' entries are
    finite and the two arrangements are one function. -/
theorem algebraic : Cert.algebraic_KernelIdeal_ReferenceIdeal := by
  intro m ρ m' ρ' hpre hagree
  refine ⟨_, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq,
    (hagree c).1, (hagree c).2.1, (hagree c).2.2.1, (hagree c).2.2.2]
  obtain ⟨f0, f1, f2⟩ := Cert.FiniteInputs.finite_of_pre _ _ _ _ (hpre c)
  exact (Cert.QuantSpec.grouped_eq_dequant _ _ _ _ f0 f1 f2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
